-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S32x1x256 : Shape := ⟨3, ![32, 1, 256]⟩
abbrev S1x1x256 : Shape := ⟨3, ![1, 1, 256]⟩
abbrev S256x256 : Shape := ⟨2, ![256, 256]⟩
abbrev S256x1 : Shape := ⟨2, ![256, 1]⟩
abbrev S2048x256 : Shape := ⟨2, ![2048, 256]⟩
abbrev S256x2048 : Shape := ⟨2, ![256, 2048]⟩
abbrev S256 : Shape := ⟨1, ![256]⟩
abbrev S1x256 : Shape := ⟨2, ![1, 256]⟩

abbrev nBuf : Space → Nat
  | .hbm => 41
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .bf16⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S8192, .f32⟩
  | .hbm, ⟨32, _⟩ => ⟨S32x1x256, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S8192x256, .bf16⟩
  | .local _ .vmem, ⟨1, _⟩ => ⟨S1x1x256, .f32⟩
  | .local _ .vmem, ⟨2, _⟩ => ⟨S1x1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k0_mult2 : BitVec 32 :=
  let c0_i32 : BitVec 32 := 0#32
  let c2048_i32 : BitVec 32 := 2048#32
  let v6 : BitVec 32 := Scalar.muli c0_i32 c2048_i32
  v6
def k0_off2 (c0_i32 : BitVec 32) : Fin 2 → Nat :=
  let c2048_i32 : BitVec 32 := 2048#32
  let v6 : BitVec 32 := Scalar.muli c0_i32 c2048_i32
  let v7 : BitVec 32 := v6
  let v8 : Index := Scalar.indexCast v7
  let c0_0 : Index := 0#32
  ![v8.toNat, 0]
def k0_mult3 : BitVec 32 :=
  let c1_i32 : BitVec 32 := 1#32
  let c2048_i32_4 : BitVec 32 := 2048#32
  let v18 : BitVec 32 := Scalar.muli c1_i32 c2048_i32_4
  v18
def k0_mult4 : BitVec 32 :=
  let c2_i32 : BitVec 32 := 2#32
  let c2048_i32_9 : BitVec 32 := 2048#32
  let v30 : BitVec 32 := Scalar.muli c2_i32 c2048_i32_9
  v30
def k0_mult5 : BitVec 32 :=
  let c3_i32 : BitVec 32 := 3#32
  let c2048_i32_14 : BitVec 32 := 2048#32
  let v42 : BitVec 32 := Scalar.muli c3_i32 c2048_i32_14
  v42
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  bcast_S_S4096 : S_.BroadcastsInDim S4096 (![] : Fin 0 → Fin S4096.rank)
  concatenates_S4096_S4096_S8192_d0 : Shape.Concatenates [S4096, S4096] S8192 0
  h_S256x256 : 0 < S256x256.numel
  shapeCasts_S256x256_S256x256 : S256x256.ShapeCasts S256x256
  h_S2048x256 : 0 < S2048x256.numel
  shapeCasts_S2048x256_S2048x256 : S2048x256.ShapeCasts S2048x256
  reduces_S256x2048_S256 : S256x2048.Reduces [1] S256
  shapeCasts_S256_S256x1 : S256.ShapeCasts S256x1
  reduces_S256x256_S256 : S256x256.Reduces [1] S256
  transposes_S256x1_p1_0_S1x256 : S256x1.Transposes [1, 0] S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S32x1x256_S8192 : S32x1x256.ShapeCasts S8192
  reducesTo_S8192_S_d0 : S8192.ReducesTo [0] S_
  dot_S256x256_S2048x256_S256x2048_1_1_0_0_n_n_wf : DotDims.WF S256x256 S2048x256 S256x2048 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S8192x256.size a
  k0_mult2_dvd : 2048 ∣ k0_mult2.toNat
  k0_off2_inb : ∀ (r : Fin 4), ∀ a, (k0_off2 (BitVec.ofNat 32 r.val)) a + S2048x256.size a ≤ S8192x256.size a
  k0_mult3_dvd : 2048 ∣ k0_mult3.toNat
  k0_mult4_dvd : 2048 ∣ k0_mult4.toNat
  k0_mult5_dvd : 2048 ∣ k0_mult5.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S32x1x256.size a
  hwx0_1 : ∀ i : grid0.Coords, EltTy.bits .f32 = 32 ∨ (Rect.block (s := S32x1x256) S1x1x256.size (cc0_transform_1 i) (hinb0_1 i)).WholeWords (EltTy.packing .f32)

variable [Facts₀]

def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_v11) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_call2_v0 : Ref sig .tc := ⟨.hbm, 30, rfl⟩
abbrev main_call2_cst : Ref sig .tc := ⟨.hbm, 31, rfl⟩
abbrev main_call2_v1 : Ref sig .tc := ⟨.hbm, 32, rfl⟩
abbrev main_call2_v2 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call3_v0 : Ref sig .tc := ⟨.hbm, 40, rfl⟩
abbrev main_call3_cst : Ref sig .tc := ⟨.hbm, 41, rfl⟩
abbrev main_call3_v1 : Ref sig .tc := ⟨.hbm, 42, rfl⟩
abbrev main_call3_v2 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«169787_j70188355551618_2_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.RowSumPayload.lean ====
/-
  What the row-sum kernel stores, entry by entry, on the extended reals.

  At a grid point the body holds a block of 256 rows (the "row block") and, one after another, four chunks of
  2048 rows of the same normalized matrix. For row p of the row block it stores, at lane p of the [1, 1, 256]
  output block,

      ((((0 + S 0) + S 1) + S 2) + S 3) - exp ((sum over k of row k * row k) * 2.0)

  where S c is the sum over the 2048 rows j of chunk c of exp ((sum over k of row k * chunk j k) * 2.0):
  each chunk's matrix product contracts both operands' last axes into a zero accumulator, is scaled by the
  constant 2.0, exponentiated, summed along its rows' 2048 columns and added to the running column; the
  subtracted term is the row's own scaled sum of squares, exponentiated; the column is then transposed to a
  row and given a leading unit axis, which moves no value. The changes of float format are the identity here.
-/
import proofs.«169787_j70188355551618_2_alg».proof.Proof.Gen.KernelIdeal.Skeleton
import proofs.«169787_j70188355551618_2_alg».proof.Proof.LibTransposedRecord
import proofs.«169787_j70188355551618_2_alg».proof.Proof.LibRowOps
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.RowSum

open Idealize.ShloMosaic Idealize.ShloMosaic.TcCoe Idealize.ShloMosaic.ValueIdx
open Cert.KernelIdeal Cert.KernelIdeal.Facts₀

/-- The scale a similarity is multiplied by: the f32 word of 2.0 (the reciprocal of the temperature 0.5). -/
abbrev invT : EReal := Ideal.ofBits .f32 0x40000000#32

/-- One chunk's contribution to a row's sum: over the chunk's 2048 rows, exp of the scaled dot product. -/
def chunkSum (row : Fin 256 → EReal) (v : S2048x256.Idx → EReal) : EReal :=
  ∑ j : Fin 2048, Ideal.exp ((∑ k : Fin 256, row k * v (ix2 j k)) * invT)

/-- A row's diagonal term: exp of its scaled sum of squares. -/
def selfTerm (row : Fin 256 → EReal) : EReal := Ideal.exp ((∑ k : Fin 256, row k * row k) * invT)

/-- The loaded row block recast to its own shape is itself. -/
theorem pay2_apply (v3 : Vec Ideal S256x256 .bf16) (i : S256x256.Idx) : Gen.k0_pay2 (F := Ideal) v3 i = v3 i := by
  unfold Gen.k0_pay2
  exact congrFun (shapeCast_self v3 shapeCasts_S256x256_S256x256) i

/-- One chunk's column of row sums, at row p: the chunk's contribution. -/
theorem chunk_apply (v3 : Vec Ideal S256x256 .bf16) (v : Vec Ideal S2048x256 .bf16) (p : Fin 256) (u : Fin 1) :
    shapeCast S256x1 (multiReduction (F := Ideal) .add [1] S256
        (exp (mulf (matmul dot_S256x256_S2048x256_S256x2048_1_1_0_0_n_n none (Gen.k0_pay2 (F := Ideal) v3)
            (shapeCast S2048x256 v shapeCasts_S2048x256_S2048x256 : FVec Ideal S2048x256 .bf16) (constant (F := Ideal) S256x2048 .f32 0x00000000#32))
          (broadcast S256x2048 (Scalar.ofBits (F := Ideal) .f32 0x40000000#32))))
        0x00000000#32 reduces_S256x2048_S256 (.inl rfl) rfl) shapeCasts_S256_S256x1 (ix2 p u)
      = chunkSum (fun k => v3 (ix2 p k)) v := by
  refine (Gcn.Lib.shapeCast_a_a1_apply _ shapeCasts_S256_S256x1 p u).trans ?_
  refine (Gcn.Lib.rowSum_apply _ reduces_S256x2048_S256 (.inl rfl) rfl p).trans ?_
  unfold chunkSum
  refine Finset.sum_congr rfl fun j _ => ?_
  show Ideal.exp (FloatOps.matmul dot_S256x256_S2048x256_S256x2048_1_1_0_0_n_n none (Gen.k0_pay2 (F := Ideal) v3)
      (shapeCast S2048x256 v shapeCasts_S2048x256_S2048x256 : FVec Ideal S2048x256 .bf16) (constant (F := Ideal) S256x2048 .f32 0x00000000#32) (ix2 p j)
      * Ideal.ofBits .f32 0x40000000#32) = _
  refine congrArg (fun x => Ideal.exp (x * invT)) ?_
  refine (TransposedRecord.matmul_zero_apply dot_S256x256_S2048x256_S256x2048_1_1_0_0_n_n rfl rfl rfl rfl rfl rfl
    (Gen.k0_pay2 (F := Ideal) v3) (shapeCast S2048x256 v shapeCasts_S2048x256_S2048x256 : FVec Ideal S2048x256 .bf16) none p j).trans ?_
  refine Finset.sum_congr rfl fun k _ => ?_
  rw [pay2_apply, shapeCast_self v shapeCasts_S2048x256_S2048x256]

/-- The row block's column of scaled sums of squares, exponentiated, at row p: the row's diagonal term. -/
theorem self_apply (v3 : Vec Ideal S256x256 .bf16) (p : Fin 256) (u : Fin 1) :
    exp (F := Ideal) (mulf (shapeCast S256x1 (multiReduction (F := Ideal) .add [1] S256
        (mulf (extf .f32 (Gen.k0_pay2 (F := Ideal) v3) bitsLt_bf16_f32) (extf .f32 (Gen.k0_pay2 (F := Ideal) v3) bitsLt_bf16_f32))
        0x00000000#32 reduces_S256x256_S256 (.inl rfl) rfl) shapeCasts_S256_S256x1)
      (broadcast S256x1 (Scalar.ofBits (F := Ideal) .f32 0x40000000#32))) (ix2 p u)
      = selfTerm (fun k => v3 (ix2 p k)) := by
  show Ideal.exp (shapeCast S256x1 (multiReduction (F := Ideal) .add [1] S256
        (mulf (extf .f32 (Gen.k0_pay2 (F := Ideal) v3) bitsLt_bf16_f32) (extf .f32 (Gen.k0_pay2 (F := Ideal) v3) bitsLt_bf16_f32))
        0x00000000#32 reduces_S256x256_S256 (.inl rfl) rfl) shapeCasts_S256_S256x1 (ix2 p u)
      * Ideal.ofBits .f32 0x40000000#32) = _
  unfold selfTerm
  refine congrArg (fun x => Ideal.exp (x * invT)) ?_
  refine (Gcn.Lib.shapeCast_a_a1_apply _ shapeCasts_S256_S256x1 p u).trans ?_
  refine (Gcn.Lib.rowSum_apply _ reduces_S256x256_S256 (.inl rfl) rfl p).trans ?_
  refine Finset.sum_congr rfl fun k _ => ?_
  show Gen.k0_pay2 (F := Ideal) v3 (ix2 p k) * Gen.k0_pay2 (F := Ideal) v3 (ix2 p k) = _
  rw [pay2_apply]

/-- The running column after the first two chunks, at row p. -/
theorem pay3_apply (v3 : Vec Ideal S256x256 .bf16) (v9 v21 : Vec Ideal S2048x256 .bf16) (p : Fin 256) (u : Fin 1) :
    Gen.k0_pay3 (F := Ideal) v3 v9 v21 (ix2 p u)
      = ((0 : EReal) + chunkSum (fun k => v3 (ix2 p k)) v9) + chunkSum (fun k => v3 (ix2 p k)) v21 := by
  unfold Gen.k0_pay3
  refine (addf_apply _ _ _).trans ?_
  refine congrArg₂ (· + ·) ((addf_apply _ _ _).trans (congrArg₂ (· + ·) ?_ (chunk_apply v3 v9 p u))) (chunk_apply v3 v21 p u)
  show Ideal.ofBits .f32 0x00000000#32 = 0
  exact Ideal.ofBits_zero_f32

/-- The third chunk's exponentials, entry (p, j). Stated through the row sum, which is how it is used. -/
theorem pay4_rowSum_apply (v3 : Vec Ideal S256x256 .bf16) (v33 : Vec Ideal S2048x256 .bf16) (p : Fin 256) (u : Fin 1) :
    shapeCast S256x1 (multiReduction (F := Ideal) .add [1] S256 (Gen.k0_pay4 (F := Ideal) v3 v33)
        0x00000000#32 reduces_S256x2048_S256 (.inl rfl) rfl) shapeCasts_S256_S256x1 (ix2 p u)
      = chunkSum (fun k => v3 (ix2 p k)) v33 := by
  unfold Gen.k0_pay4
  exact chunk_apply v3 v33 p u

/-- THE STORED BLOCK at lane p: the four chunks' contributions accumulated from zero, less the diagonal term. -/
theorem pay1_apply (v3 : Vec Ideal S256x256 .bf16) (v9 v21 v33 v45 : Vec Ideal S2048x256 .bf16) (a b : Fin 1) (p : Fin 256) :
    Gen.k0_pay1 (F := Ideal) (Gen.k0_pay2 v3) (Gen.k0_pay3 v3 v9 v21) (Gen.k0_pay4 v3 v33) v45 (ix3 a b p)
      = ((((0 : EReal) + chunkSum (fun k => v3 (ix2 p k)) v9) + chunkSum (fun k => v3 (ix2 p k)) v21)
            + chunkSum (fun k => v3 (ix2 p k)) v33 + chunkSum (fun k => v3 (ix2 p k)) v45)
          - selfTerm (fun k => v3 (ix2 p k)) := by
  unfold Gen.k0_pay1
  refine (shapeCast_ab_1ab_apply _ shapeCasts_S1x256_S1x1x256 a b p).trans ?_
  refine (transpose_ix2_apply _ transposes_S256x1_p1_0_S1x256 b p).trans ?_
  refine (subf_apply _ _ _).trans ?_
  refine congrArg₂ (· - ·) ?_ (self_apply v3 p b)
  refine (addf_apply _ _ _).trans ?_
  refine congrArg₂ (· + ·) ((addf_apply _ _ _).trans (congrArg₂ (· + ·) (pay3_apply v3 v9 v21 p b) (pay4_rowSum_apply v3 v33 p b))) ?_
  exact chunk_apply v3 v45 p b

end Cert.KernelIdeal.RowSum

end
-- ==== Proof.LibDiagonalCancel.lean ====
/-
  Removing the diagonal of a row sum by subtraction, on the extended reals.

  For a row of extended reals f and a position r whose term f r is a real number, the whole row sum minus
  f r is the row sum with the term at r replaced by zero: the sum splits as (sum of the others) + f r, and a
  real number cancels from an extended-real sum whatever the rest is (an infinite term would not cancel:
  on the extended reals ⊤ - ⊤ is ⊥).

  Also here, because they are what makes the diagonal term a real number when the rows are unit vectors: for a
  row of real numbers a and a positive real floor e, each entry a k divided by max (sqrt (0 + sum of squares)) e
  is a real number (the denominator is a real at least e, so it is not zero); and for a row of reals b and a real
  scale c, exp ((sum of b k * b k) * c) is a real number.
-/
import Idealize.ShloMosaic.PureOps.Ideal

namespace DiagonalCancel

open Idealize.ShloMosaic

/-- A row sum is the sum with the term at r zeroed, plus the term at r. No finiteness is used. -/
theorem sum_split_at {n : ℕ} (f : Fin n → EReal) (r : Fin n) :
    ∑ j, f j = (∑ j, if r = j then (0 : EReal) else f j) + f r := by
  have h : ∀ j, f j = (if r = j then (0 : EReal) else f j) + (if r = j then f j else 0) := by
    intro j
    by_cases hj : r = j
    · rw [if_pos hj, if_pos hj, zero_add]
    · rw [if_neg hj, if_neg hj, add_zero]
  calc ∑ j, f j = ∑ j, ((if r = j then (0 : EReal) else f j) + (if r = j then f j else 0)) :=
        Finset.sum_congr rfl fun j _ => h j
    _ = (∑ j, if r = j then (0 : EReal) else f j) + ∑ j, (if r = j then f j else 0) := Finset.sum_add_distrib
    _ = _ := by rw [Finset.sum_ite_eq Finset.univ r f, if_pos (Finset.mem_univ r)]

/-- The row sum minus its term at r is the row sum with that term zeroed, when the term is a real number. -/
theorem sum_sub_diag {n : ℕ} (f : Fin n → EReal) (r : Fin n) (x : ℝ) (h : f r = (x : EReal)) :
    (∑ j, f j) - f r = ∑ j, if r = j then (0 : EReal) else f j := by
  rw [sum_split_at f r, h]
  exact EReal.add_sub_cancel_right

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of coerced reals is the coercion of the real sum of products. -/
theorem sum_mul_coe {n : ℕ} (a b : Fin n → ℝ) : ∑ k, (a k : EReal) * (b k : EReal) = ((∑ k, a k * b k : ℝ) : EReal) := by
  rw [coe_sum]; exact Finset.sum_congr rfl fun k _ => (EReal.coe_mul _ _).symm

/-- The coercion commutes with max (it is monotone). -/
theorem coe_max (x y : ℝ) : ((max x y : ℝ) : EReal) = max (x : EReal) (y : EReal) :=
  EReal.coe_strictMono.monotone.map_max

/-- An entry of a real row divided by the row's norm floored at a positive real is a real number. -/
theorem normalized_real {n : ℕ} (a : Fin n → ℝ) (e : ℝ) (he : 0 < e) (k : Fin n) :
    ∃ y : ℝ, Ideal.div (a k : EReal) (max (Ideal.sqrt ((0 : EReal) + ∑ d, (a d : EReal) * (a d : EReal))) (e : EReal)) = (y : EReal) := by
  have hs : (0 : ℝ) ≤ ∑ d, a d * a d := Finset.sum_nonneg fun d _ => mul_self_nonneg (a d)
  rw [zero_add, sum_mul_coe, Ideal.sqrt_coe, if_neg (not_lt.mpr hs), ← coe_max]
  have hpos : (0 : ℝ) < max (Real.sqrt (∑ d, a d * a d)) e := lt_max_of_lt_right he
  rw [Ideal.div_coe (ne_of_gt hpos), ← EReal.coe_mul]
  exact ⟨_, rfl⟩

/-- exp of a scaled self-product of a real row is a real number. -/
theorem exp_selfdot_real {n : ℕ} (z : Fin n → EReal) (hz : ∀ k, ∃ b : ℝ, z k = (b : EReal)) (c : ℝ) :
    ∃ y : ℝ, Ideal.exp ((∑ k, z k * z k) * (c : EReal)) = (y : EReal) := by
  choose b hb using hz
  have : ∑ k, z k * z k = ((∑ k, b k * b k : ℝ) : EReal) := by
    rw [← sum_mul_coe]; exact Finset.sum_congr rfl fun k _ => by rw [hb k]
  rw [this, ← EReal.coe_mul, Ideal.exp_coe]
  exact ⟨_, rfl⟩

end DiagonalCancel
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.MaskedRowSum.lean ====
/-
  One row of the masked sum of exponentials, in the two spellings, and that they agree for a real row.

  Z is the matrix of unit rows (8192 rows of 256 entries, extended reals). For a row r:

  * the tiled spelling accumulates, from zero, four chunk sums (chunk c holds the rows 2048 c ... 2048 c + 2047),
    each the sum over the chunk's rows j of exp ((Z r . Z j) * 2), and then subtracts the diagonal term
    exp ((Z r . Z r) * 2);
  * the plain spelling is zero plus the sum over all 8192 rows j of (0 if r = j, else exp ((Z r . Z j) / (1/2))).

  Dividing by 1/2 is multiplying by 2 on every extended real. The four chunk sums regroup into the one sum over
  all rows (addition is associative and commutative on the extended reals, at the infinities too). The last step
  is the one that needs finiteness: the whole sum minus its diagonal term is the sum with the diagonal term
  zeroed only when that term is a real number, which it is when row r of Z consists of real numbers.
-/
import proofs.«169787_j70188355551618_2_alg».proof.Proof.LibDiagonalCancel
import proofs.«169787_j70188355551618_2_alg».proof.Proof.LibGroupedSum
import Idealize.ShloMosaic.PureOps.Ideal
import Idealize.ShloMosaic.PureOps.Ideal.Laws

noncomputable section

namespace MaskedRowSum

open Idealize.ShloMosaic

/-- The f32 word of 2.0: what the tiled spelling multiplies a similarity by. -/
abbrev invT : EReal := Ideal.ofBits .f32 0x40000000#32
/-- The f32 word of 0.5 (the temperature): what the plain spelling divides a similarity by. -/
abbrev temp : EReal := Ideal.ofBits .f32 0x3F000000#32

theorem invT_eq : invT = ((2 : ℝ) : EReal) := by
  simp [Ideal.ofBits, Ideal.ieee]
  exact_mod_cast (by norm_num : (8388608 : ℝ) * (((2 ^ 22 : ℕ) : ℝ))⁻¹ = 2)
theorem temp_eq : temp = ((1 / 2 : ℝ) : EReal) := by
  simp [Ideal.ofBits, Ideal.ieee]
  exact_mod_cast (by norm_num : (8388608 : ℝ) * (((2 ^ 24 : ℕ) : ℝ))⁻¹ = 2⁻¹)

/-- Dividing by the temperature is multiplying by its reciprocal, on every extended real. -/
theorem div_temp (x : EReal) : Ideal.div x temp = x * invT := by
  rw [temp_eq, invT_eq, Ideal.div_coe (by norm_num : (1 / 2 : ℝ) ≠ 0)]
  norm_num

theorem four_chunks : 4 * 2048 = 8192 := by norm_num

variable (Z : Fin 8192 → Fin 256 → EReal)

/-- exp of the scaled similarity of rows r and j, scaled by multiplication. -/
def simExp (r j : Fin 8192) : EReal := Ideal.exp ((∑ k, Z r k * Z j k) * invT)
/-- The same, scaled by division by the temperature. -/
def simExpDiv (r j : Fin 8192) : EReal := Ideal.exp (Ideal.div (∑ k, Z r k * Z j k) temp)

theorem simExpDiv_eq (r j : Fin 8192) : simExpDiv Z r j = simExp Z r j := by
  unfold simExpDiv simExp; rw [div_temp]

/-- Row j of chunk c. -/
abbrev chunkRow (c : Fin 4) (j : Fin 2048) : Fin 8192 := ⟨c.val * 2048 + j.val, GroupedSum.group_lt four_chunks c j⟩

/-- Chunk c's contribution to row r. -/
def chunk (r : Fin 8192) (c : Fin 4) : EReal := ∑ j : Fin 2048, simExp Z r (chunkRow c j)

/-- The tiled spelling. -/
def tiledRow (r : Fin 8192) : EReal :=
  ((((0 : EReal) + chunk Z r 0) + chunk Z r 1) + chunk Z r 2 + chunk Z r 3) - simExp Z r r

/-- The plain spelling. -/
def plainRow (r : Fin 8192) : EReal := (0 : EReal) + ∑ j : Fin 8192, if r = j then (0 : EReal) else simExpDiv Z r j

/-- The two spellings agree at a row of real numbers. -/
theorem tiledRow_eq_plainRow (r : Fin 8192) (hr : ∀ k, ∃ b : ℝ, Z r k = (b : EReal)) : tiledRow Z r = plainRow Z r := by
  unfold tiledRow plainRow
  have hsum : (((0 : EReal) + chunk Z r 0) + chunk Z r 1) + chunk Z r 2 + chunk Z r 3 = ∑ j, simExp Z r j := by
    rw [GroupedSum.sum_groups four_chunks (simExp Z r), Fin.sum_univ_four, zero_add]
    rfl
  obtain ⟨y, hy⟩ := DiagonalCancel.exp_selfdot_real (Z r) hr 2
  have hy' : simExp Z r r = (y : EReal) := by
    unfold simExp; rw [invT_eq]; exact hy
  rw [hsum, DiagonalCancel.sum_sub_diag (simExp Z r) r y hy', zero_add]
  exact Finset.sum_congr rfl fun j _ => by rw [simExpDiv_eq]

end MaskedRowSum

end
-- ==== Proof.RowSumValue.lean ====
/-
  The kernel's result array: entry (t, 0, p) of the [32, 1, 256] array is the tiled row sum of row 256 t + p.

  At grid point t the body finds the whole normalized matrix X (its one input block is the whole [8192, 256]
  array), loads the row block "rows 256 t ... 256 t + 255" and the four chunks "rows 2048 c ... 2048 c + 2047",
  and stores one [1, 1, 256] block; that block is written back to the array at (t, 0, 0). So lane p of point t's
  block is the tiled row sum (MaskedRowSum.tiledRow) of row 256 t + p of X, the 32 blocks tile the array, and the
  array ends holding all 8192 row sums.
-/
import proofs.«169787_j70188355551618_2_alg».proof.Proof.Gen.KernelIdeal.Frame
import proofs.«169787_j70188355551618_2_alg».proof.Proof.RowSumPayload
import proofs.«169787_j70188355551618_2_alg».proof.Proof.MaskedRowSum
import Idealize.ShloMosaic.Lib.Pipeline.Value
import Idealize.ShloMosaic.Lib.Tactic

noncomputable section

namespace Cert.KernelIdeal.RowSum

open Idealize.ShloMosaic Idealize.ShloMosaic.TcCoe Idealize.SL.Sem Idealize.ShloMosaic.ValueIdx
open Idealize.ShloMosaic.Pipeline (Dat)
open Cert.KernelIdeal Cert.KernelIdeal.Gen

theorem hz3 : (![0, 0, 0] : Fin 3 → Nat) = fun _ => 0 := funext fun a => by fin_cases a <;> rfl

/-! ## What the body leaves in the output block, as the payload of its five loads -/

section Piece
variable {F : FTy → Type} [FloatOps F]

/-- The row block's rectangle at grid coordinates i, and chunk c's. -/
abbrev rowRect (i : grid0.Coords) : Rect S8192x256 :=
  Rect.unit (s := S8192x256) (k0_off1 i) S256x256.size (Facts₀.k0_off1_inb i)
abbrev chunkRect (c : Fin 4) : Rect S8192x256 :=
  Rect.unit (s := S8192x256) (k0_off2 (BitVec.ofNat 32 c.val)) S2048x256.size (Facts₀.k0_off2_inb c)

/-- The body's one store covers the output block; what it stores is the payload of the row block and the four
    chunks loaded from the input's staging buffer. -/
theorem out_eq (c : Dev nD) (i : grid0.Coords) (a1 : Memref sig .tc .vmem S8192x256 .bf16) (h1 : a1.IsWhole)
    (a2 : Memref sig .tc .vmem S1x1x256 .f32) (h2 : a2.IsWhole) (x0 : Vec F S8192x256 .bf16) :
    out0_A_1 c i a1 h1 a2 h2 x0
      = k0_pay1 (k0_pay2 (View.ld x0 (rowRect i)))
          (k0_pay3 (View.ld x0 (rowRect i)) (View.ld x0 (chunkRect 0)) (View.ld x0 (chunkRect 1)))
          (k0_pay4 (View.ld x0 (rowRect i)) (View.ld x0 (chunkRect 2)))
          (View.ld x0 (chunkRect 3)) := by
  unfold out0_A_1
  rw [View.read_writes_eq_canon _ _ _ (cover0_A_1 c i a1 h1 a2 h2 x0)]
  unfold kernelRun0_A
  dsimp only
  sl_unfold_words
  rw [View.canon_unit_zero (S := S1x1x256) hz3]
  simp only [View.readAt_eq_ld, h1.read_unread]
  rfl

end Piece

/-! ## The loads read at an entry -/

/-- Row p of the row block at coordinates i is row 256 i + p of the matrix. -/
theorem ld_rowRect_apply (X : Vec Ideal S8192x256 .bf16) (i : grid0.Coords) (p k : Fin 256)
    (h : 256 * (i 0).val + p.val < 8192) :
    (View.ld X (rowRect i) : Vec Ideal S256x256 .bf16) (ix2 p k) = X (ix2 (⟨256 * (i 0).val + p.val, h⟩ : Fin 8192) k) := by
  show X _ = X _
  refine congrArg X (funext fun a => Fin.ext ?_)
  match a with
  | ⟨0, _⟩ =>
    show k0_off1 i 0 + 1 * p.val = 256 * (i 0).val + p.val
    rw [k0_off1_eq i]
    show 256 * (i 0).val + 1 * p.val = _
    omega
  | ⟨1, _⟩ =>
    show k0_off1 i 1 + 1 * k.val = k.val
    rw [k0_off1_eq i]
    show 0 + 1 * k.val = k.val
    omega

/-- Row j of chunk c is row 2048 c + j of the matrix. -/
theorem ld_chunkRect_apply (X : Vec Ideal S8192x256 .bf16) (c : Fin 4) (j : Fin 2048) (k : Fin 256) :
    (View.ld X (chunkRect c) : Vec Ideal S2048x256 .bf16) (ix2 j k) = X (ix2 (MaskedRowSum.chunkRow c j) k) := by
  show X _ = X _
  refine congrArg X (funext fun a => Fin.ext ?_)
  match a with
  | ⟨0, _⟩ =>
    show k0_off2 (BitVec.ofNat 32 c.val) 0 + 1 * j.val = c.val * 2048 + j.val
    rw [k0_off2_eq c]
    show 2048 * c.val + 1 * j.val = _
    omega
  | ⟨1, _⟩ =>
    show k0_off2 (BitVec.ofNat 32 c.val) 1 + 1 * k.val = k.val
    rw [k0_off2_eq c]
    show 0 + 1 * k.val = k.val
    omega

/-! ## One block is the tiled row sums of its 256 rows -/

/-- The matrix as rows. -/
abbrev rowsOf (X : S8192x256.Idx → EReal) : Fin 8192 → Fin 256 → EReal := fun r k => X (ix2 r k)

theorem chunkSum_eq (X : Vec Ideal S8192x256 .bf16) (i : grid0.Coords) (p : Fin 256) (h : 256 * (i 0).val + p.val < 8192)
    (c : Fin 4) :
    chunkSum (fun k => (View.ld X (rowRect i) : Vec Ideal S256x256 .bf16) (ix2 p k)) (View.ld X (chunkRect c))
      = MaskedRowSum.chunk (rowsOf X) ⟨256 * (i 0).val + p.val, h⟩ c := by
  unfold chunkSum MaskedRowSum.chunk MaskedRowSum.simExp
  refine Finset.sum_congr rfl fun j _ => ?_
  refine congrArg (fun x => Ideal.exp (x * MaskedRowSum.invT)) ?_
  refine Finset.sum_congr rfl fun k _ => ?_
  beta_reduce
  rw [ld_rowRect_apply X i p k h, ld_chunkRect_apply X c j k]

theorem selfTerm_eq (X : Vec Ideal S8192x256 .bf16) (i : grid0.Coords) (p : Fin 256) (h : 256 * (i 0).val + p.val < 8192) :
    selfTerm (fun k => (View.ld X (rowRect i) : Vec Ideal S256x256 .bf16) (ix2 p k))
      = MaskedRowSum.simExp (rowsOf X) ⟨256 * (i 0).val + p.val, h⟩ ⟨256 * (i 0).val + p.val, h⟩ := by
  unfold selfTerm MaskedRowSum.simExp
  refine congrArg (fun x => Ideal.exp (x * MaskedRowSum.invT)) ?_
  refine Finset.sum_congr rfl fun k _ => ?_
  beta_reduce
  rw [ld_rowRect_apply X i p k h]

/-- Lane p of the block stored at coordinates i: the tiled row sum of row 256 i + p. -/
theorem block_apply (X : Vec Ideal S8192x256 .bf16) (i : grid0.Coords) (a b : Fin 1) (p : Fin 256)
    (h : 256 * (i 0).val + p.val < 8192) :
    k0_pay1 (F := Ideal) (k0_pay2 (View.ld X (rowRect i)))
        (k0_pay3 (View.ld X (rowRect i)) (View.ld X (chunkRect 0)) (View.ld X (chunkRect 1)))
        (k0_pay4 (View.ld X (rowRect i)) (View.ld X (chunkRect 2)))
        (View.ld X (chunkRect 3)) (ix3 a b p)
      = MaskedRowSum.tiledRow (rowsOf X) ⟨256 * (i 0).val + p.val, h⟩ := by
  refine (pay1_apply _ _ _ _ _ a b p).trans ?_
  unfold MaskedRowSum.tiledRow
  rw [chunkSum_eq X i p h 0, chunkSum_eq X i p h 1, chunkSum_eq X i p h 2, chunkSum_eq X i p h 3, selfTerm_eq X i p h]

/-- THE ARRAY OF ROW SUMS: entry (t, 0, p) is the tiled row sum of row 256 t + p. -/
def rowSums (X : S8192x256.Idx → EReal) : S32x1x256.Idx → EReal := fun j =>
  MaskedRowSum.tiledRow (rowsOf X) ⟨256 * (j 0).val + (j 2).val, by
    have h0 : (j 0).val < 32 := (j 0).isLt
    have h2 : (j 2).val < 256 := (j 2).isLt
    omega⟩

/-- The block at coordinates i, entry y, is the array of row sums at any index on block row i with y's lane. -/
theorem block_eq_rowSums (X : Vec Ideal S8192x256 .bf16) (i : grid0.Coords) (y : S1x1x256.Idx) (I : S32x1x256.Idx)
    (h0 : (I 0).val = (i 0).val) (h2 : (I 2).val = (y 2).val) :
    k0_pay1 (F := Ideal) (k0_pay2 (View.ld X (rowRect i)))
        (k0_pay3 (View.ld X (rowRect i)) (View.ld X (chunkRect 0)) (View.ld X (chunkRect 1)))
        (k0_pay4 (View.ld X (rowRect i)) (View.ld X (chunkRect 2)))
        (View.ld X (chunkRect 3)) y
      = rowSums X I := by
  have hI0 : (I 0).val < 32 := (I 0).isLt
  have hy2 : (y 2).val < 256 := (y 2).isLt
  have h : 256 * (i 0).val + (y 2).val < 8192 := by omega
  rw [eq_ix3 y]
  refine (block_apply X i (y 0) (y 1) (y 2) h).trans ?_
  unfold rowSums
  exact congrArg (MaskedRowSum.tiledRow (rowsOf X)) (Fin.ext (by show 256 * (i 0).val + (y 2).val = 256 * (I 0).val + (I 2).val; omega))

/-! ## From blocks to the array -/

variable (m : (ℓ : Loc nD τ sig) → Buf (Elt Ideal) ℓ) (ρ : Dev nD → PrngReg)

/-- The printed index maps over the grid: the input's one block is the whole matrix; the output's block at point t
    is block row t; and grid point t has coordinate t. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ (grid0.coords t 0).val = t.val :=
  (by decide +kernel : ∀ t : Fin grid0.N, _)

/-- The input window's block at every point is the whole matrix as the region finds it. -/
theorem iblk_eq (c : Dev nD) (t : Fin cfg0.N) : (iblk m c 0 t : Vec Ideal S8192x256 .bf16) = V m c main_v11 := by
  obtain ⟨e0, e1, -, -, -, -⟩ := idx_facts t
  funext y
  unfold iblk
  rw [View.read_apply]
  show V m c main_v11 _ = V m c main_v11 y
  congr 1
  funext a
  apply Fin.ext
  match a with
  | ⟨0, _⟩ => show win0_0.index t (0 : Fin 2) * 8192 + 1 * (y 0).val = (y 0).val; rw [e0]; omega
  | ⟨1, _⟩ => show win0_0.index t (1 : Fin 2) * 256 + 1 * (y 1).val = (y 1).val; rw [e1]; omega

/-- WHAT POINT t WRITES BACK is block t of the array of row sums of the matrix as the region finds it. -/
theorem flushed_eq (c : Dev nD) (t : Fin cfg0.N) :
    (dats m 0 c).flushed 1 t = ((cfg0.win 1).blk t).view.read (Elt Ideal) (rowSums (V m c main_v11)) := by
  show (cfg0.win 1).cut (grid0.coords t) ((dats m 0 c).after 1 t) = _
  rw [after0_1]
  unfold outsAt0
  rw [out_eq, iblk_eq m c t]
  obtain ⟨-, -, e2, -, -, e5⟩ := idx_facts t
  funext y
  refine block_eq_rowSums (V m c main_v11) (grid0.coords t) y (((cfg0.win 1).blk t).view.emb y) ?_ ?_
  · show win0_1.index t (0 : Fin 3) * 1 + 1 * (y 0).val = (grid0.coords t 0).val
    have hy : (y 0).val < 1 := (y 0).isLt
    rw [e2, e5]; omega
  · show win0_1.index t (2 : Fin 3) * 256 + 1 * (y 2).val = (y 2).val
    obtain ⟨-, -, -, -, e4, -⟩ := idx_facts t
    rw [e4]; omega

/-- An index of the array is in point t's block iff each coordinate is in the block's range on its axis. -/
theorem mem_blk (t : Fin cfg0.N) (i : S32x1x256.Idx) :
    i ∈ ((cfg0.win 1).blk t).view.set ↔ ∀ a : Fin 3, win0_1.index t a * S1x1x256.size a ≤ (i a).val ∧ (i a).val < win0_1.index t a * S1x1x256.size a + S1x1x256.size a := by
  show i ∈ ((View.whole main_v18).slice (win0_1.rect t)).set ↔ _
  rw [View.set_slice_whole, Rect.mem_set_unit]
  exact Iff.rfl

/-- THE ARRAY after the run: all 8192 row sums (every index lies in the block of the point named by its first
    coordinate). -/
theorem final (c : Dev nD) : (dats m 0 c).arrAt 1 cfg0.N = rowSums (V m c main_v11) :=
  (dats m 0 c).arrAt_eq_of_cover 1 (rowSums (V m c main_v11)) (fun t _ => flushed_eq m c t) fun i => by
    have hN : cfg0.N = 32 := N_0
    have hi0 : (i 0).val < 32 := (i 0).isLt
    have hi1 : (i 1).val < 1 := (i 1).isLt
    have hi2 : (i 2).val < 256 := (i 2).isLt
    have ht : (i 0).val < cfg0.N := by rw [hN]; exact hi0
    obtain ⟨-, -, e2, e3, e4, -⟩ := idx_facts ⟨(i 0).val, ht⟩
    have e2' : win0_1.index ⟨(i 0).val, ht⟩ (0 : Fin 3) = (i 0).val := e2
    refine ⟨⟨(i 0).val, ht⟩, flush0_1 _, ?_⟩
    rw [mem_blk]
    intro a
    match a with
    | ⟨0, _⟩ =>
      show win0_1.index ⟨(i 0).val, ht⟩ (0 : Fin 3) * 1 ≤ (i 0).val ∧ (i 0).val < win0_1.index ⟨(i 0).val, ht⟩ (0 : Fin 3) * 1 + 1
      rw [e2']; omega
    | ⟨1, _⟩ =>
      show win0_1.index ⟨(i 0).val, ht⟩ (1 : Fin 3) * 1 ≤ (i 1).val ∧ (i 1).val < win0_1.index ⟨(i 0).val, ht⟩ (1 : Fin 3) * 1 + 1
      rw [e3]; omega
    | ⟨2, _⟩ =>
      show win0_1.index ⟨(i 0).val, ht⟩ (2 : Fin 3) * 256 ≤ (i 2).val ∧ (i 2).val < win0_1.index ⟨(i 0).val, ht⟩ (2 : Fin 3) * 256 + 256
      rw [e4]; omega

end Cert.KernelIdeal.RowSum

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibUnitRows.lean ====
/-
  Rows divided by their norms, the norm floored at a constant: the host's spelling read at an entry, two such
  matrices stacked, and realness of the entries.

  For an [a, b] matrix A the host computes A / broadcast (max (sqrt (broadcast (sum over the columns of A * A)))
  (broadcast floor)). At entry (r, k) this is A (r, k) divided by max (sqrt (sum over d of A (r, d) * A (r, d)))
  floor, where floor is what the constant's f32 word denotes: each row is normalized on its own, so stacking two
  matrices and normalizing the stack is stacking the two normalized matrices (read at an entry, both are the
  normalized row of whichever piece the row falls in). When every entry of A is a real number and the floor is
  a positive real, every normalized entry is a real number: the sum of squares is a non-negative real, its root a
  real, the floored root a positive real, and a real divided by a non-zero real is a real.
-/
import proofs.«169787_j70188355551618_2_alg».proof.Proof.LibHostRead
import proofs.«169787_j70188355551618_2_alg».proof.Proof.LibDiagonalCancel
import Idealize.ShloMosaic.Lib.Pipeline.Value
import Idealize.ShloMosaic.Lib.ValueIdx
import Idealize.ShloMosaic.PureOps.Ideal.Laws

noncomputable section

namespace UnitRows

open Idealize.ShloMosaic Idealize.ShloMosaic.ValueIdx

variable {a b : ℕ}

/-- Entry (r, k) of the matrix of A's rows divided by their norms floored at what the word w denotes. -/
def unitRow (w : BitVec 32) (A : (⟨2, ![a, b]⟩ : Shape).Idx → EReal) (r : Fin a) (k : Fin b) : EReal :=
  Ideal.div (A (ix2 r k)) (max (Ideal.sqrt (∑ d : Fin b, A (ix2 r d) * A (ix2 r d))) (Ideal.ofBits .f32 w))

/-- The host's spelling, read at an entry. -/
theorem host_apply (w : BitVec 32) (A : FVec Ideal ⟨2, ![a, b]⟩ .f32)
    (hred : Shape.ReducesTo ⟨2, ![a, b]⟩ [1] ⟨1, ![a]⟩) (hu : 0 < (⟨0, ![]⟩ : Shape).numel)
    (hcol : (⟨1, ![a]⟩ : Shape).BroadcastsInDim ⟨2, ![a, 1]⟩ (![0] : Fin 1 → Fin 2))
    (hflo : (⟨0, ![]⟩ : Shape).BroadcastsInDim ⟨2, ![a, 1]⟩ ![])
    (hrep : (⟨2, ![a, 1]⟩ : Shape).BroadcastsInDim ⟨2, ![a, b]⟩ (![0, 1] : Fin 2 → Fin 2))
    (r : Fin a) (k : Fin b) :
    Host.divf A (broadcastInDim ⟨2, ![a, b]⟩ ![0, 1] hrep
        (maximumf (Host.sqrt (broadcastInDim ⟨2, ![a, 1]⟩ ![0] hcol
            (Host.reduceAdd (mulf A A) (constant (F := Ideal) ⟨0, ![]⟩ .f32 0x00000000#32) hred hu)))
          (broadcastInDim ⟨2, ![a, 1]⟩ ![] hflo (constant (F := Ideal) ⟨0, ![]⟩ .f32 w)))) (ix2 r k)
      = unitRow w A r k := by
  show Ideal.div (A (ix2 r k)) (broadcastInDim ⟨2, ![a, b]⟩ ![0, 1] hrep
        (maximumf (Host.sqrt (broadcastInDim ⟨2, ![a, 1]⟩ ![0] hcol
            (Host.reduceAdd (mulf A A) (constant (F := Ideal) ⟨0, ![]⟩ .f32 0x00000000#32) hred hu)))
          (broadcastInDim ⟨2, ![a, 1]⟩ ![] hflo (constant (F := Ideal) ⟨0, ![]⟩ .f32 w))) (ix2 r k)) = _
  rw [Hmu.Lib.bcast_a1_ab_apply]
  show Ideal.div (A (ix2 r k)) (max (Ideal.sqrt (broadcastInDim ⟨2, ![a, 1]⟩ ![0] hcol
            (Host.reduceAdd (mulf A A) (constant (F := Ideal) ⟨0, ![]⟩ .f32 0x00000000#32) hred hu) (ix2 r (0 : Fin 1))))
          (broadcastInDim ⟨2, ![a, 1]⟩ ![] hflo (constant (F := Ideal) ⟨0, ![]⟩ .f32 w) (ix2 r (0 : Fin 1)))) = _
  rw [Hmu.Lib.bcast_a_a1_apply, Hmu.Lib.bcast_const_apply, Hmu.Lib.hostReduceAdd_ab_axis1_apply]
  rfl

/-! ## Two matrices stacked along the rows, at an entry -/

section Stack
variable {α : Type} {n₁ n₂ N : ℕ}

/-- An entry of the stack whose row falls in the first piece. -/
theorem stack_apply_left (x₁ : (⟨2, ![n₁, b]⟩ : Shape).Idx → α) (x₂ : (⟨2, ![n₂, b]⟩ : Shape).Idx → α)
    (h : Shape.Concatenates [⟨2, ![n₁, b]⟩, ⟨2, ![n₂, b]⟩] ⟨2, ![N, b]⟩ 0) (r : Fin N) (k : Fin b) (hlt : r.val < n₁) :
    concatenate ⟨2, ![N, b]⟩ 0 [⟨⟨2, ![n₁, b]⟩, x₁⟩, ⟨⟨2, ![n₂, b]⟩, x₂⟩] h (ix2 r k) = x₁ (ix2 ⟨r.val, hlt⟩ k) :=
  concatenate_pair_apply_left 0 x₁ x₂ h (ix2 r k) rfl (ix2 ⟨r.val, hlt⟩ k)
    (fun d => match d with | ⟨0, _⟩ => rfl | ⟨1, _⟩ => rfl)

/-- An entry of the stack whose row falls in the second piece. -/
theorem stack_apply_right (x₁ : (⟨2, ![n₁, b]⟩ : Shape).Idx → α) (x₂ : (⟨2, ![n₂, b]⟩ : Shape).Idx → α)
    (h : Shape.Concatenates [⟨2, ![n₁, b]⟩, ⟨2, ![n₂, b]⟩] ⟨2, ![N, b]⟩ 0) (r : Fin N) (k : Fin b)
    (hge : n₁ ≤ r.val) (hlt : r.val - n₁ < n₂) :
    concatenate ⟨2, ![N, b]⟩ 0 [⟨⟨2, ![n₁, b]⟩, x₁⟩, ⟨⟨2, ![n₂, b]⟩, x₂⟩] h (ix2 r k) = x₂ (ix2 ⟨r.val - n₁, hlt⟩ k) :=
  concatenate_pair_apply_right 0 x₁ x₂ h (ix2 r k) rfl rfl (ix2 ⟨r.val - n₁, hlt⟩ k)
    (fun d hd => match d with | ⟨0, _⟩ => absurd rfl hd | ⟨1, _⟩ => rfl)
    (by show (r.val - n₁) + n₁ = r.val; omega)

end Stack

/-- The rows of two stacked matrices, normalized piece by piece. -/
def stackedUnitRow (w : BitVec 32) {n₁ n₂ : ℕ} (A₁ : (⟨2, ![n₁, b]⟩ : Shape).Idx → EReal)
    (A₂ : (⟨2, ![n₂, b]⟩ : Shape).Idx → EReal) (N : ℕ) (hN : n₁ + n₂ = N) (r : Fin N) (k : Fin b) : EReal :=
  if hlt : r.val < n₁ then unitRow w A₁ ⟨r.val, hlt⟩ k
  else unitRow w A₂ ⟨r.val - n₁, by have := r.isLt; omega⟩ k

/-- Normalizing the stack is stacking the normalized pieces: an entry of the normalized stack. -/
theorem unitRow_stack (w : BitVec 32) {n₁ n₂ N : ℕ} (A₁ : (⟨2, ![n₁, b]⟩ : Shape).Idx → EReal)
    (A₂ : (⟨2, ![n₂, b]⟩ : Shape).Idx → EReal) (hN : n₁ + n₂ = N)
    (h : Shape.Concatenates [⟨2, ![n₁, b]⟩, ⟨2, ![n₂, b]⟩] ⟨2, ![N, b]⟩ 0) (r : Fin N) (k : Fin b) :
    unitRow w (concatenate ⟨2, ![N, b]⟩ 0 [⟨⟨2, ![n₁, b]⟩, A₁⟩, ⟨⟨2, ![n₂, b]⟩, A₂⟩] h) r k
      = stackedUnitRow w A₁ A₂ N hN r k := by
  unfold stackedUnitRow unitRow
  by_cases hlt : r.val < n₁
  · rw [dif_pos hlt, stack_apply_left A₁ A₂ h r k hlt]
    refine congrArg (fun s => Ideal.div _ (max (Ideal.sqrt s) _)) (Finset.sum_congr rfl fun d _ => ?_)
    rw [stack_apply_left A₁ A₂ h r d hlt]
  · have hge : n₁ ≤ r.val := Nat.le_of_not_lt hlt
    have hlt2 : r.val - n₁ < n₂ := by have := r.isLt; omega
    rw [dif_neg hlt, stack_apply_right A₁ A₂ h r k hge hlt2]
    refine congrArg (fun s => Ideal.div _ (max (Ideal.sqrt s) _)) (Finset.sum_congr rfl fun d _ => ?_)
    rw [stack_apply_right A₁ A₂ h r d hge hlt2]

/-- The stack of the normalized pieces, at an entry. -/
theorem stack_unitRow (w : BitVec 32) {n₁ n₂ N : ℕ} (U₁ : (⟨2, ![n₁, b]⟩ : Shape).Idx → EReal)
    (U₂ : (⟨2, ![n₂, b]⟩ : Shape).Idx → EReal) (A₁ : (⟨2, ![n₁, b]⟩ : Shape).Idx → EReal)
    (A₂ : (⟨2, ![n₂, b]⟩ : Shape).Idx → EReal) (hU₁ : ∀ r k, U₁ (ix2 r k) = unitRow w A₁ r k)
    (hU₂ : ∀ r k, U₂ (ix2 r k) = unitRow w A₂ r k) (hN : n₁ + n₂ = N)
    (h : Shape.Concatenates [⟨2, ![n₁, b]⟩, ⟨2, ![n₂, b]⟩] ⟨2, ![N, b]⟩ 0) (r : Fin N) (k : Fin b) :
    concatenate ⟨2, ![N, b]⟩ 0 [⟨⟨2, ![n₁, b]⟩, U₁⟩, ⟨⟨2, ![n₂, b]⟩, U₂⟩] h (ix2 r k)
      = stackedUnitRow w A₁ A₂ N hN r k := by
  unfold stackedUnitRow
  by_cases hlt : r.val < n₁
  · rw [dif_pos hlt, stack_apply_left U₁ U₂ h r k hlt, hU₁]
  · have hge : n₁ ≤ r.val := Nat.le_of_not_lt hlt
    have hlt2 : r.val - n₁ < n₂ := by have := r.isLt; omega
    rw [dif_neg hlt, stack_apply_right U₁ U₂ h r k hge hlt2, hU₂]

/-! ## Realness -/

/-- A normalized entry of a real matrix, the floor a positive real, is a real number. -/
theorem unitRow_real (w : BitVec 32) (e : ℝ) (he : 0 < e) (hw : Ideal.ofBits .f32 w = (e : EReal))
    (A : (⟨2, ![a, b]⟩ : Shape).Idx → EReal) (hA : ∀ i, ∃ x : ℝ, A i = (x : EReal)) (r : Fin a) (k : Fin b) :
    ∃ y : ℝ, unitRow w A r k = (y : EReal) := by
  choose f hf using hA
  unfold unitRow
  have hsum : ∑ d : Fin b, A (ix2 r d) * A (ix2 r d) = ((∑ d : Fin b, f (ix2 r d) * f (ix2 r d) : ℝ) : EReal) := by
    rw [← DiagonalCancel.sum_mul_coe]
    exact Finset.sum_congr rfl fun d _ => by rw [hf]
  have hs : (0 : ℝ) ≤ ∑ d : Fin b, f (ix2 r d) * f (ix2 r d) := Finset.sum_nonneg fun d _ => mul_self_nonneg _
  have hpos : (0 : ℝ) < max (Real.sqrt (∑ d : Fin b, f (ix2 r d) * f (ix2 r d))) e := lt_max_of_lt_right he
  rw [hw, hf (ix2 r k), hsum, Ideal.sqrt_coe, if_neg (not_lt.mpr hs), ← DiagonalCancel.coe_max,
    Ideal.div_coe (ne_of_gt hpos), ← EReal.coe_mul]
  exact ⟨_, rfl⟩

/-- The same for two stacked real matrices. -/
theorem stackedUnitRow_real (w : BitVec 32) (e : ℝ) (he : 0 < e) (hw : Ideal.ofBits .f32 w = (e : EReal))
    {n₁ n₂ N : ℕ} (A₁ : (⟨2, ![n₁, b]⟩ : Shape).Idx → EReal) (A₂ : (⟨2, ![n₂, b]⟩ : Shape).Idx → EReal)
    (h₁ : ∀ i, ∃ x : ℝ, A₁ i = (x : EReal)) (h₂ : ∀ i, ∃ x : ℝ, A₂ i = (x : EReal)) (hN : n₁ + n₂ = N)
    (r : Fin N) (k : Fin b) : ∃ y : ℝ, stackedUnitRow w A₁ A₂ N hN r k = (y : EReal) := by
  unfold stackedUnitRow
  by_cases hlt : r.val < n₁
  · rw [dif_pos hlt]; exact unitRow_real w e he hw A₁ h₁ _ k
  · rw [dif_neg hlt]; exact unitRow_real w e he hw A₂ h₂ _ k

end UnitRows

end
-- ==== Proof.KernelHost.lean ====
/-
  The host operations around the kernel's region.

  Before the region the program normalizes each [4096, 256] input row by row (divides each row by its norm floored
  at a constant), stacks the two normalized inputs into the [8192, 256] matrix the region reads (the change of float
  format on the way is the identity), and computes the positive-pair vector. After the region it reshapes the
  [32, 1, 256] array of row sums to [8192], divides the positive-pair vector by it, takes minus the logarithm, sums,
  and divides by 8192. Here: the matrix the region finds, entry by entry; the positive-pair vector; and the
  program's result as that loss of the positive-pair vector and the reshaped row sums.
-/
import proofs.«169787_j70188355551618_2_alg».proof.Proof.RowSumValue
import proofs.«169787_j70188355551618_2_alg».proof.Proof.LibUnitRows
import Idealize.ShloMosaic.Lib.StableHlo.Run

noncomputable section

namespace Cert.KernelIdeal.RowSum

open Idealize.ShloMosaic Idealize.ShloMosaic.TcCoe Idealize.SL.Sem Idealize.ShloMosaic.ValueIdx
open Idealize.ShloMosaic.Pipeline (Dat)
open Cert.KernelIdeal Cert.KernelIdeal.Gen

/-- The f32 word of the norm's floor (1e-8). -/
abbrev floorWord : BitVec 32 := 0x322BCC77#32

theorem rows_add : 4096 + 4096 = 8192 := by norm_num

/-- A [4096, 256] input with each row divided by its floored norm, as the program spells it. -/
def hostUnit (A : FVec Ideal S4096x256 .f32) : FVec Ideal S4096x256 .f32 :=
  Host.divf A (broadcastInDim S4096x256 ![0, 1] Facts₀.bcast_S4096x1_S4096x256_0_1
    (maximumf (Host.sqrt (broadcastInDim S4096x1 ![0] Facts₀.bcast_S4096_S4096x1_0
        (Host.reduceAdd (mulf A A) (constant (F := Ideal) S_ .f32 0x00000000#32) Facts₀.reducesTo_S4096x256_S4096_d1 Facts₀.h_S_)))
      (broadcastInDim S4096x1 ![] Facts₀.bcast_S_S4096x1 (constant (F := Ideal) S_ .f32 0x322BCC77#32))))

theorem hostUnit_apply (A : FVec Ideal S4096x256 .f32) (r : Fin 4096) (k : Fin 256) :
    hostUnit A (ix2 r k) = UnitRows.unitRow floorWord A r k :=
  UnitRows.host_apply floorWord A Facts₀.reducesTo_S4096x256_S4096_d1 Facts₀.h_S_ Facts₀.bcast_S4096_S4096x1_0
    Facts₀.bcast_S_S4096x1 Facts₀.bcast_S4096x1_S4096x256_0_1 r k

/-- The positive-pair vector, as the program spells it. -/
def hostPos (A0 A1 : FVec Ideal S4096x256 .f32) : FVec Ideal S8192 .f32 :=
  concatenate S8192 0
    [⟨S4096, Host.exp (Host.divf (Host.reduceAdd (mulf (hostUnit A0) (hostUnit A1)) (constant (F := Ideal) S_ .f32 0x00000000#32)
        Facts₀.reducesTo_S4096x256_S4096_d1 Facts₀.h_S_)
        (broadcastInDim S4096 ![] Facts₀.bcast_S_S4096 (constant (F := Ideal) S_ .f32 0x3F000000#32)))⟩,
     ⟨S4096, Host.exp (Host.divf (Host.reduceAdd (mulf (hostUnit A0) (hostUnit A1)) (constant (F := Ideal) S_ .f32 0x00000000#32)
        Facts₀.reducesTo_S4096x256_S4096_d1 Facts₀.h_S_)
        (broadcastInDim S4096 ![] Facts₀.bcast_S_S4096 (constant (F := Ideal) S_ .f32 0x3F000000#32)))⟩]
    Facts₀.concatenates_S4096_S4096_S8192_d0

/-- The loss of a positive-pair vector and a vector of row sums: the mean of minus the logarithm of their quotient. -/
def lossOf (pos sim : FVec Ideal S8192 .f32) : FVec Ideal S_ .f32 :=
  Host.divf (Host.reduceAdd (Host.negf (Host.log (Host.divf pos sim))) (constant (F := Ideal) S_ .f32 0x00000000#32)
    Facts₀.reducesTo_S8192_S_d0 Facts₀.h_S_) (constant (F := Ideal) S_ .f32 0x46000000#32)

variable (m : (ℓ : Loc nD τ sig) → Buf (Elt Ideal) ℓ)

/-- The matrix the region finds: the two normalized inputs stacked. -/
theorem V_main_v11 (c : Dev nD) : (V m c main_v11 : Vec Ideal S8192x256 .bf16)
    = truncf .bf16 (concatenate S8192x256 0 [⟨S4096x256, hostUnit (m ((c : Thread nD τ).loc main_arg0))⟩,
        ⟨S4096x256, hostUnit (m ((c : Thread nD τ).loc main_arg1))⟩] Facts₀.concatenates_S4096x256_S4096x256_S8192x256_d0)
      Facts₀.bitsLt_bf16_f32 := by
  dsimp only [V, V0]
  simp only [hostOps0, hostOps0_1, hostOps0_2, hostOps0_3, List.flatten_cons, List.flatten_nil, List.append_nil,
    List.cons_append, List.nil_append]
  after_results
  rfl

/-- Entry (r, k) of it: the normalized row of the input that row r falls in. -/
theorem V_main_v11_apply (c : Dev nD) (r : Fin 8192) (k : Fin 256) :
    (V m c main_v11 : Vec Ideal S8192x256 .bf16) (ix2 r k)
      = UnitRows.stackedUnitRow floorWord (m ((c : Thread nD τ).loc main_arg0)) (m ((c : Thread nD τ).loc main_arg1))
          8192 rows_add r k := by
  rw [V_main_v11]
  exact UnitRows.stack_unitRow floorWord _ _ _ _ (hostUnit_apply _) (hostUnit_apply _) rows_add
    Facts₀.concatenates_S4096x256_S4096x256_S8192x256_d0 r k

set_option maxHeartbeats 4000000 in
set_option maxRecDepth 8192 in
/-- The positive-pair vector the tail finds. -/
theorem V_main_v17 (c : Dev nD) : (V m c main_v17 : Vec Ideal S8192 .f32)
    = hostPos (m ((c : Thread nD τ).loc main_arg0)) (m ((c : Thread nD τ).loc main_arg1)) := by
  dsimp only [V, V0]
  simp only [hostOps0, hostOps0_1, hostOps0_2, hostOps0_3, List.flatten_cons, List.flatten_nil, List.append_nil,
    List.cons_append, List.nil_append]
  after_results
  rfl

/-- THE PROGRAM'S RESULT: the loss of the positive-pair vector and the reshaped array of row sums. -/
theorem result_eq (c : Dev nD) :
    Pipeline.afterTail₀ cfgs (dats m) 0 (V0 m) [hostOps1] c main_v24
      = lossOf (V m c main_v17) (shapeCast S8192 (rowSums (V m c main_v11)) Facts₀.shapeCasts_S32x1x256_S8192) := by
  unfold Pipeline.afterTail₀
  show StableHlo.after hostOps1 _ (Proc.devRef .tc main_v24) = _
  after_results
  rw [Pipeline.withArrays_of_ne _ c (V0 m c) _ main_v17 (by exact (by decide : ∀ w, Pipeline.arrRef spec0 w ≠ main_v17)),
    (Pipeline.withArrays_arr spec0 launch0.win.arr_inj c _ _ 1).trans (final m c)]
  rfl

end Cert.KernelIdeal.RowSum

end
-- ==== Proof.RefRowSum.lean ====
/-
  The reference's masked row sums, read at a row.

  The reference stacks the two inputs, divides each row of the stack by its norm floored at a constant (its matrix
  of unit rows), takes all pairwise dot products, divides them by the temperature, exponentiates, replaces the
  diagonal (where the row iota equals the column iota) by zero and sums each row from zero. At row r that is
  MaskedRowSum.plainRow of the matrix of unit rows; and an entry of that matrix is the normalized row of whichever
  input the row falls in.
-/
import proofs.«169787_j70188355551618_2_alg».proof.Proof.Gen.ReferenceIdeal.Read
import proofs.«169787_j70188355551618_2_alg».proof.Proof.MaskedRowSum
import proofs.«169787_j70188355551618_2_alg».proof.Proof.LibUnitRows
import Idealize.ShloMosaic.Lib.Affine
import Idealize.ShloMosaic.Lib.ValueIdx

noncomputable section

namespace Cert.ReferenceIdeal.RowSum

open Idealize.ShloMosaic Idealize.ShloMosaic.ValueIdx
open Cert.ReferenceIdeal Cert.ReferenceIdeal.Read

/-- The f32 word of the norm's floor (1e-8). -/
abbrev floorWord : BitVec 32 := 0x322BCC77#32

theorem rows_add : 4096 + 4096 = 8192 := by norm_num

/-- The diagonal mask: the row iota (plus a zero word) compared for equality with the column iota selects the
    first value exactly on the diagonal. -/
theorem eye_select {α : Type} (r j : Fin 8192) (x y : α) :
    Scalar.select (IntOp.cmpi .eq (IntOp.addi (BitVec.ofNat 32 r.val) 0#32) (BitVec.ofNat 32 j.val)) x y
      = if r = j then x else y := by
  have hiff : IntOp.cmpi .eq (IntOp.addi (BitVec.ofNat 32 r.val) 0#32) (BitVec.ofNat 32 j.val) = 1#1 ↔ r = j := by
    rw [IntOp.cmpi_eq]
    unfold IntOp.addi
    rw [BitVec.add_zero]
    constructor
    · intro h
      have h' := congrArg BitVec.toNat h
      rw [BitVec.toNat_ofNat, BitVec.toNat_ofNat] at h'
      have hr := r.isLt
      have hj := j.isLt
      exact Fin.ext (by omega)
    · rintro rfl; rfl
  unfold Scalar.select
  exact if_congr hiff rfl rfl

/-- An entry of the reference's matrix of unit rows: the normalized row of the input the row falls in. -/
theorem unitRows_apply (x0 x1 : FVec Ideal S4096x256 .f32) (r : Fin 8192) (k : Fin 256) :
    val_main_v5 (F := Ideal) x0 x1 (ix2 r k) = UnitRows.stackedUnitRow floorWord x0 x1 8192 rows_add r k := by
  have h : val_main_v5 (F := Ideal) x0 x1 (ix2 r k) = UnitRows.unitRow floorWord (val_main_v0 (F := Ideal) x0 x1) r k := by
    unfold val_main_v5 val_main_v4 val_main_v3 val_main_v2 val_main_v1 val_main_cst val_main_call0_v2 val_main_call0_v1
      val_main_call0_v0 val_main_call0_cst
    exact UnitRows.host_apply floorWord (val_main_v0 (F := Ideal) x0 x1) Facts₀.reducesTo_S8192x256_S8192_d1 Facts₀.h_S_
      Facts₀.bcast_S8192_S8192x1_0 Facts₀.bcast_S_S8192x1 Facts₀.bcast_S8192x1_S8192x256_0_1 r k
  rw [h]
  unfold val_main_v0
  exact UnitRows.unitRow_stack floorWord x0 x1 rows_add Facts₀.concatenates_S4096x256_S4096x256_S8192x256_d0 r k

/-- The reference's matrix of unit rows, as rows. -/
abbrev rowsOf (x0 x1 : FVec Ideal S4096x256 .f32) : Fin 8192 → Fin 256 → EReal :=
  fun r k => val_main_v5 (F := Ideal) x0 x1 (ix2 r k)

/-- THE REFERENCE'S MASKED ROW SUM at row r. -/
theorem rowSum_apply (x0 x1 : FVec Ideal S4096x256 .f32) (r : Fin 8192) :
    val_main_v16 (F := Ideal) x0 x1 (ix1 r) = MaskedRowSum.plainRow (rowsOf x0 x1) r := by
  rw [val_main_v16_apply]
  unfold MaskedRowSum.plainRow
  refine congrArg₂ (· + ·) ?_ (Finset.sum_congr rfl fun j _ => ?_)
  · show Ideal.ofBits .f32 0x00000000#32 = 0
    exact Ideal.ofBits_zero_f32
  · have hi : idx_main_v16 (ix1 r) j = ix2 r j :=
      funext fun a => Fin.ext (by match a with | ⟨0, _⟩ => rfl | ⟨1, _⟩ => rfl)
    have hl : ∀ k, lidx_main_v6 (ix2 r j) k = ix2 r k := fun k =>
      funext fun a => Fin.ext (by match a with | ⟨0, _⟩ => rfl | ⟨1, _⟩ => rfl)
    have hr : ∀ k, ridx_main_v6 (ix2 r j) k = ix2 j k := fun k =>
      funext fun a => Fin.ext (by match a with | ⟨0, _⟩ => rfl | ⟨1, _⟩ => rfl)
    rw [hi, val_main_v15_apply, val_main_v14_apply, val_main_v13_apply, val_main_v10_apply, val_main_v11_apply,
      val_main_v12_apply, val_main_c_apply, val_main_call1_v1_apply, val_main_call1_v0_apply, val_main_cst_1_apply,
      val_main_v9_apply, val_main_v8_apply, val_main_v7_apply, val_main_cst_0_apply, val_main_v6_apply]
    simp only [hl, hr]
    refine (eye_select r j _ _).trans ?_
    refine if_congr Iff.rfl ?_ rfl
    show Ideal.ofBits .f32 0x00000000#32 = 0
    exact Ideal.ofBits_zero_f32

end Cert.ReferenceIdeal.RowSum

end
-- ==== Proof.FiniteInputs.lean ====
/-
  The precondition, decoded: every entry of both inputs is a real number.

  The precondition says that for each input the conjunction over all entries of "|x| < +infinity" is true. A
  conjunction that is true is true at every entry; and an extended real whose absolute value max x (-x) is below
  the top element is neither infinity, so it is a real number.
-/
import proofs.«169787_j70188355551618_2_alg».proof.Proof.Gen.Pre_finite_inputs
import proofs.«169787_j70188355551618_2_alg».proof.Proof.LibHostRead
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs

instance : Subsingleton S_.Idx := ⟨fun a b => funext fun d => d.elim0⟩

/-- The f32 word of +infinity denotes the top element. -/
theorem ofBits_inf : Ideal.ofBits .f32 0x7F800000#32 = ⊤ := by simp [Ideal.ofBits, Ideal.ieee]

/-- An extended real whose absolute value is below the top element is a real number. -/
theorem real_of_abs_lt_top (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- One entry of an input whose "finite" bit is set is a real number. -/
theorem entry_real (A : FVec Ideal S4096x256 .f32) (i : S4096x256.Idx)
    (h : cmpf .olt (Host.absf A) (broadcastInDim S4096x256 ![] Facts.bcast_S_S4096x256 (constant (F := Ideal) S_ .f32 0x7F800000#32)) i = 1#1) :
    ∃ r : ℝ, A i = (r : EReal) := by
  apply real_of_abs_lt_top
  have hb := Hmu.Lib.bcast_const_apply 0x7F800000#32 Facts.bcast_S_S4096x256 i
  change Ideal.cmp .olt (max (A i) (-(A i)))
    (broadcastInDim S4096x256 ![] Facts.bcast_S_S4096x256 (constant (F := Ideal) S_ .f32 0x7F800000#32) i) = 1#1 at h
  rw [hb, ofBits_inf] at h
  exact h

/-- Under the precondition every entry of both inputs is a real number. -/
theorem finite_of_pre (a0 a1 : FVec Ideal S4096x256 .f32) (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨e0, e1⟩ := IntOp.andi_eq_one.mp h0
  exact ⟨fun i => entry_real a0 i (Host.reduce_andi_all _ _ _ _ _ e0 i),
    fun i => entry_real a1 i (Host.reduce_andi_all _ _ _ _ _ e1 i)⟩

end Cert.Pre_finite_inputs.Finite

end
-- ==== Proof.LossAgreement.lean ====
/-
  The two programs compute one loss.

  Both programs end with the same loss of a positive-pair vector and a vector of masked row sums. The
  positive-pair vectors are spelt identically. The row sums: the kernel's array, reshaped, holds at row r the
  tiled row sum of its matrix of unit rows, the reference's vector the plain row sum of its own; the two matrices
  are one (normalizing the stacked inputs row by row is stacking the normalized inputs); and the tiled and plain
  row sums agree at a row of real numbers, which every row is when the inputs are finite: this is where the
  precondition is used (the floor 1e-8 is a positive real, so no normalized entry divides by zero).
-/
import proofs.«169787_j70188355551618_2_alg».proof.Defs
import proofs.«169787_j70188355551618_2_alg».proof.Proof.KernelHost
import proofs.«169787_j70188355551618_2_alg».proof.Proof.RefRowSum
import proofs.«169787_j70188355551618_2_alg».proof.Proof.FiniteInputs

noncomputable section

namespace Cert.Proof.LossAgreement

open Idealize.ShloMosaic Idealize.ShloMosaic.TcCoe Idealize.SL.Sem Idealize.ShloMosaic.ValueIdx
open Cert.KernelIdeal Cert.KernelIdeal.Gen

/-- The norm's floor, the f32 word of 1e-8, denotes a positive real. -/
theorem floor_pos : ∃ e : ℝ, 0 < e ∧ Ideal.ofBits .f32 0x322BCC77#32 = (e : EReal) := by
  refine ⟨11258999 * ((2 : ℝ) ^ 50)⁻¹, by positivity, ?_⟩
  simp [Ideal.ofBits, Ideal.ieee]

variable (m : (ℓ : Loc nD τ sig) → Buf (Elt Ideal) ℓ)

/-- The kernel's reshaped row sums are the reference's, when both inputs consist of real numbers. -/
theorem rowSums_eq (c : Dev nD)
    (h0 : ∀ i, ∃ x : ℝ, m ((c : Thread nD τ).loc main_arg0) i = (x : EReal))
    (h1 : ∀ i, ∃ x : ℝ, m ((c : Thread nD τ).loc main_arg1) i = (x : EReal)) :
    (shapeCast S8192 (Cert.KernelIdeal.RowSum.rowSums (V m c main_v11)) Facts₀.shapeCasts_S32x1x256_S8192 : FVec Ideal S8192 .f32)
      = Cert.ReferenceIdeal.Read.val_main_v16 (F := Ideal) (m ((c : Thread nD τ).loc main_arg0)) (m ((c : Thread nD τ).loc main_arg1)) := by
  funext i
  obtain ⟨r, rfl⟩ : ∃ r : Fin 8192, i = ix1 r := ⟨i 0, eq_ix1 i⟩
  have hr := r.isLt
  have hdiv : r.val / 256 < 32 := by omega
  have hmod : r.val % 256 < 256 := Nat.mod_lt _ (by norm_num)
  refine (shapeCast_apply _ Facts₀.shapeCasts_S32x1x256_S8192 (ix1 r)
    (ix3 (⟨r.val / 256, hdiv⟩ : Fin 32) (0 : Fin 1) (⟨r.val % 256, hmod⟩ : Fin 256)) ?_).trans ?_
  · rw [Shape.rowMajor_val_three, Shape.rowMajor_val_one]
    show (r.val / 256 * 1 + 0) * 256 + r.val % 256 = r.val
    omega
  rw [Cert.ReferenceIdeal.RowSum.rowSum_apply]
  obtain ⟨e, he, hw⟩ := floor_pos
  -- the two matrices of unit rows are one
  have hK : Cert.KernelIdeal.RowSum.rowsOf (V m c main_v11)
      = fun r k => UnitRows.stackedUnitRow 0x322BCC77#32 (m ((c : Thread nD τ).loc main_arg0))
          (m ((c : Thread nD τ).loc main_arg1)) 8192 Cert.KernelIdeal.RowSum.rows_add r k :=
    funext fun r => funext fun k => Cert.KernelIdeal.RowSum.V_main_v11_apply m c r k
  have hR : Cert.ReferenceIdeal.RowSum.rowsOf (m ((c : Thread nD τ).loc main_arg0)) (m ((c : Thread nD τ).loc main_arg1))
      = fun r k => UnitRows.stackedUnitRow 0x322BCC77#32 (m ((c : Thread nD τ).loc main_arg0))
          (m ((c : Thread nD τ).loc main_arg1)) 8192 Cert.KernelIdeal.RowSum.rows_add r k :=
    funext fun r => funext fun k => Cert.ReferenceIdeal.RowSum.unitRows_apply _ _ r k
  unfold Cert.KernelIdeal.RowSum.rowSums
  rw [hK, hR]
  have hidx : (⟨256 * (r.val / 256) + r.val % 256, by omega⟩ : Fin 8192) = r := Fin.ext (by show 256 * (r.val / 256) + r.val % 256 = r.val; omega)
  refine (congrArg (MaskedRowSum.tiledRow _) hidx).trans ?_
  exact MaskedRowSum.tiledRow_eq_plainRow _ r fun k =>
    UnitRows.stackedUnitRow_real 0x322BCC77#32 e he hw _ _ h0 h1 Cert.KernelIdeal.RowSum.rows_add r k

/-- THE KERNEL PROGRAM'S RESULT IS THE REFERENCE'S TERM of the same inputs, under the precondition. -/
theorem result_eq (c : Dev nD)
    (hpre : Cert.Pre_finite_inputs.fn (F := Ideal) (m ((c : Thread nD τ).loc main_arg0)) (m ((c : Thread nD τ).loc main_arg1)) = fun _ => 1#1) :
    Pipeline.afterTail₀ cfgs (dats m) 0 (V0 m) [hostOps1] c main_v24
      = Cert.ReferenceIdeal.Read.val_main_v37 (F := Ideal) (m ((c : Thread nD τ).loc main_arg0)) (m ((c : Thread nD τ).loc main_arg1)) := by
  obtain ⟨h0, h1⟩ := Cert.Pre_finite_inputs.Finite.finite_of_pre _ _ hpre
  rw [Cert.KernelIdeal.RowSum.result_eq, rowSums_eq m c h0 h1, Cert.KernelIdeal.RowSum.V_main_v17]
  rfl

end Cert.Proof.LossAgreement

end
-- ==== Proof.lean ====
/- The proof of Cert.Claim: a tiled kernel for the masked row sums of exp (cosine similarity / temperature) of a
   contrastive loss, against the plain jnp computation.

   The kernel program normalizes the two inputs on the host, stacks them, and its kernel computes, for each of the
   8192 rows, the sum over ALL rows of exp (2 * dot product) accumulated over four column chunks, and then removes
   the diagonal by SUBTRACTING the row's own term; the reference masks the diagonal to zero before summing, and
   divides by 0.5 where the kernel multiplies by 2. On the extended reals the two agree exactly when the subtracted
   term is finite, which the precondition (finite inputs) gives: Proof/LossAgreement.lean, over
   Proof/MaskedRowSum.lean (the law), Proof/RowSumPayload.lean and Proof/RowSumValue.lean (what the kernel's array
   holds), Proof/KernelHost.lean (the host operations around the region), Proof/RefRowSum.lean (the reference's sums)
   and Proof/FiniteInputs.lean (the precondition decoded). The frames are the generated ones; the reference's frame is
   its generated run with the result dropped; the idealization rewrote nothing, so preserves is trivial. -/
import proofs.«169787_j70188355551618_2_alg».proof.Defs
import proofs.«169787_j70188355551618_2_alg».proof.Proof.Gen.Kernel
import proofs.«169787_j70188355551618_2_alg».proof.Proof.Gen.Kernel.Skeleton
import proofs.«169787_j70188355551618_2_alg».proof.Proof.Gen.Kernel.Launch
import proofs.«169787_j70188355551618_2_alg».proof.Proof.Gen.Kernel.Points
import proofs.«169787_j70188355551618_2_alg».proof.Proof.Gen.Kernel.Frame
import proofs.«169787_j70188355551618_2_alg».proof.Proof.Gen.KernelIdeal
import proofs.«169787_j70188355551618_2_alg».proof.Proof.Gen.KernelIdeal.Skeleton
import proofs.«169787_j70188355551618_2_alg».proof.Proof.Gen.KernelIdeal.Launch
import proofs.«169787_j70188355551618_2_alg».proof.Proof.Gen.KernelIdeal.Points
import proofs.«169787_j70188355551618_2_alg».proof.Proof.Gen.KernelIdeal.Frame
import proofs.«169787_j70188355551618_2_alg».proof.Proof.Gen.ReferenceIdeal
import proofs.«169787_j70188355551618_2_alg».proof.Proof.Gen.ReferenceIdeal.Run
import proofs.«169787_j70188355551618_2_alg».proof.Proof.Gen.ReferenceIdeal.Read
import proofs.«169787_j70188355551618_2_alg».proof.Proof.Gen.Pre_finite_inputs
import proofs.«169787_j70188355551618_2_alg».proof.Proof.LossAgreement
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the reference's term of the (agreeing) inputs: the kernel program by its frame run, the
    host tail read back and the agreement of the two losses under the precondition; the reference by its generated run. -/
theorem algebraic : Cert.algebraic_KernelIdeal_ReferenceIdeal := by
  intro m ρ m' ρ' hpre hagree
  refine ⟨fun c => Cert.ReferenceIdeal.Read.val_main_v37 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Gen.run_main m ρ)
    · exact ((h c).2 Cert.KernelIdeal.main_v24 (Pipeline.mem_restRefs_of Cert.KernelIdeal.main_v24 (by decide) (by decide))).trans
        (Cert.Proof.LossAgreement.result_eq m c (hpre c))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v37_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
